-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S50000x1 .f32) (main_arg2 : FVec F S128x128 .f32) (main_arg3 : FVec F S128 .f32) (main_arg4 : FVec F S128 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S50000x1 : Shape := ⟨2, ![50000, 1]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩

abbrev nBuf : Space → Nat
  | .hbm => 24
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S128x128, .f32⟩
  | .hbm, ⟨21, _⟩ => ⟨S1x128, .f32⟩
  | .hbm, ⟨22, _⟩ => ⟨S1x128, .f32⟩
  | .hbm, ⟨23, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S1x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  reduces_S5000x128_S5000 : S5000x128.Reduces [1] S5000
  shapeCasts_S5000_S5000x1 : S5000.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S128x128, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x1, .f32⟩
  | .hbm, ⟨43, _⟩ => ⟨S50000x1, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowNorm.lean ====
/-
  One node's row through the layer, on the extended reals.

  A node's aggregated feature row `a` (128 entries) is multiplied into the weight `w` (laid with the contracted
  axis first: entry (k, c) multiplies a(k) into output feature c), every entry of the product row is scaled by the
  node's factor `s`, the row is centred by its mean and divided by the square root of its variance plus the
  float 1e-5 (variance = mean of the squared centred entries; a mean is the sum of the 128 entries divided by the
  float 128), then scaled entrywise by `g`, shifted by `b`, and clipped below at zero.

  Every operation is the exact one of the ideal floats: sums and products of extended reals, `Ideal.div`,
  `Ideal.rsqrt`, `max`; the three float literals stay as their bit patterns.  Both programs compute exactly
  this function of a row, so nothing here needs the entries to be finite.
-/
import Idealize.ShloMosaic.PureOps.Ideal
import Idealize.ShloMosaic.PureOps.Ideal.Laws
import Idealize.ShloMosaic.Lib.ValueIdx

noncomputable section

namespace Cert.RowNorm

open Idealize.ShloMosaic

/-- The row through the weight, scaled by the node's factor: entry c is (Σ_k a(k) · w(k, c)) · s. -/
def lin (a : Fin 128 → EReal) (w : Fin 128 → Fin 128 → EReal) (s : EReal) (c : Fin 128) : EReal :=
  (∑ k : Fin 128, a k * w k c) * s

/-- The mean of 128 entries: their sum divided by the float 128. -/
def mean (f : Fin 128 → EReal) : EReal :=
  Ideal.div (∑ c : Fin 128, f c) (Ideal.ofBits .f32 0x43000000#32)

/-- The float zero is the zero of the extended reals: a sum started from it is the sum. -/
theorem zero_word_add (s : EReal) : Ideal.ofBits .f32 0x00000000#32 + s = s := by
  rw [Ideal.ofBits_zero_f32, zero_add]

/-- A mean whose sum is started from the float zero (the host's reduction) is the mean. -/
theorem mean_of_host (f : Fin 128 → EReal) :
    Ideal.div (Ideal.ofBits .f32 0x00000000#32 + ∑ c : Fin 128, f c) (Ideal.ofBits .f32 0x43000000#32) = mean f := by
  unfold mean
  rw [zero_word_add]

/-- The scaled product row less its mean. -/
def centred (a : Fin 128 → EReal) (w : Fin 128 → Fin 128 → EReal) (s : EReal) (c : Fin 128) : EReal :=
  lin a w s c - mean (lin a w s)

/-- One over the square root of the row's variance plus the float 1e-5. -/
def invStd (a : Fin 128 → EReal) (w : Fin 128 → Fin 128 → EReal) (s : EReal) : EReal :=
  Ideal.rsqrt (mean (fun c => centred a w s c * centred a w s c) + Ideal.ofBits .f32 0x3727C5AC#32)

/-- The layer's output row: normalised, scaled by g, shifted by b, clipped below at zero. -/
def out (a : Fin 128 → EReal) (w : Fin 128 → Fin 128 → EReal) (s : EReal) (g b : Fin 128 → EReal) (c : Fin 128) : EReal :=
  max (centred a w s c * invStd a w s * g c + b c) (Ideal.ofBits .f32 0x00000000#32)

/-- `out` of equal rows, weights, factors, scales and biases is equal. -/
theorem out_congr {a a' : Fin 128 → EReal} {w w' : Fin 128 → Fin 128 → EReal} {s s' : EReal} {g g' b b' : Fin 128 → EReal}
    (ha : a = a') (hw : w = w') (hs : s = s') (hg : g = g') (hb : b = b') (c : Fin 128) :
    out a w s g b c = out a' w' s' g' b' c := by
  subst ha hw hs hg hb
  rfl

/-- THE WHOLE ARRAY the layer produces from the aggregated features `h` (one row per node), the laid-out weight
    `wt`, the nodes' factors `sn` (a column), the scale `g` and the bias `b`: row by row `out`. -/
def layer (h : (⟨2, ![50000, 128]⟩ : Shape).Idx → EReal) (wt : (⟨2, ![128, 128]⟩ : Shape).Idx → EReal)
    (sn : (⟨2, ![50000, 1]⟩ : Shape).Idx → EReal) (g b : Fin 128 → EReal) :
    (⟨2, ![50000, 128]⟩ : Shape).Idx → EReal := fun i =>
  out (fun k => h (ValueIdx.ix2 (i 0) k)) (fun k q => wt (ValueIdx.ix2 k q)) (sn (ValueIdx.ix2 (i 0) (0 : Fin 1))) g b (i 1)

/-- The layer read at an index whose coordinates are n and c. -/
theorem layer_at (h : (⟨2, ![50000, 128]⟩ : Shape).Idx → EReal) (wt : (⟨2, ![128, 128]⟩ : Shape).Idx → EReal)
    (sn : (⟨2, ![50000, 1]⟩ : Shape).Idx → EReal) (g b : Fin 128 → EReal)
    (i : (⟨2, ![50000, 128]⟩ : Shape).Idx) (n : Fin 50000) (c : Fin 128)
    (h0 : (i 0).val = n.val) (h1 : (i 1).val = c.val) :
    layer h wt sn g b i
      = out (fun k => h (ValueIdx.ix2 n k)) (fun k q => wt (ValueIdx.ix2 k q)) (sn (ValueIdx.ix2 n (0 : Fin 1))) g b c := by
  obtain rfl : i = ValueIdx.ix2 n c := funext fun a => Fin.ext (by
    match a with
    | ⟨0, _⟩ => exact h0
    | ⟨1, _⟩ => exact h1)
  rfl

end Cert.RowNorm

end
-- ==== Proof.RefRow.lean ====
/-
  The reference, read a row at a time.

  The reference's result at (n, c) depends on the inputs only through row n of the aggregated features (the
  scatter-add of the gathered rows, kept whole and never opened), the transposed weight, node n's factor and the
  scale and bias vectors: it is `RowNorm.out` of those.  The host's sums start from the float zero, which is the
  zero of the extended reals, so they are the plain sums of `RowNorm`.
-/
import proofs.«131500_j69784628625697_1_alg».proof.Proof.Gen.ReferenceIdeal.Read
import proofs.«131500_j69784628625697_1_alg».proof.Proof.RowNorm

noncomputable section

namespace Cert.RefRow

open Cert.ReferenceIdeal Cert.ReferenceIdeal.Read Idealize.ShloMosaic Idealize.ShloMosaic.ValueIdx

variable (x0 : (⟨S50000x128, .f32⟩ : BufTy).Contents (Elt Ideal)) (x1 : (⟨S50000x1, .f32⟩ : BufTy).Contents (Elt Ideal))
  (x2 : (⟨S128x128, .f32⟩ : BufTy).Contents (Elt Ideal)) (x3 x4 : (⟨S128, .f32⟩ : BufTy).Contents (Elt Ideal))
  (x5 x6 : (⟨S800000, .i32⟩ : BufTy).Contents (Elt Ideal))

/-- Row n of the aggregated features. -/
abbrev aggRow (n : Fin 50000) : Fin 128 → EReal := fun k => val_main_v9 (F := Ideal) x0 x5 x6 (ix2 n k)

/-- The transposed weight, contracted axis first. -/
abbrev wT : Fin 128 → Fin 128 → EReal := fun k c => val_main_v10 (F := Ideal) x2 (ix2 k c)

/-- The scaled product at (n, c). -/
theorem lin_at (n : Fin 50000) (c : Fin 128) :
    val_main_v13 (F := Ideal) x0 x1 x2 x5 x6 (ix2 n c)
      = RowNorm.lin (aggRow x0 x5 x6 n) (wT x2) (x1 (ix2 n (0 : Fin 1))) c := by
  have el : ∀ k : Fin 128, lidx_main_v11 (ix2 n c) k = ix2 n k := fun k => funext fun a => Fin.ext (by
    match a with
    | ⟨0, _⟩ => rfl
    | ⟨1, _⟩ => rfl)
  have er : ∀ k : Fin 128, ridx_main_v11 (ix2 n c) k = ix2 k c := fun k => funext fun a => Fin.ext (by
    match a with
    | ⟨0, _⟩ => rfl
    | ⟨1, _⟩ => rfl)
  have es : idx_main_v12 (ix2 n c) = ix2 n (0 : Fin 1) := funext fun a => Fin.ext (by
    match a with
    | ⟨0, _⟩ => rfl
    | ⟨1, _⟩ => rfl)
  rw [val_main_v13_apply, val_main_v11_apply, val_main_v12_apply, es]
  refine congrArg (· * x1 (ix2 n (0 : Fin 1))) (Finset.sum_congr rfl fun k _ => ?_)
  rw [el k, er k]

/-- The mean of the scaled product row n. -/
theorem mean_at (n : Fin 50000) :
    val_main_v17 (F := Ideal) x0 x1 x2 x5 x6 (ix2 n (0 : Fin 1))
      = RowNorm.mean (RowNorm.lin (aggRow x0 x5 x6 n) (wT x2) (x1 (ix2 n (0 : Fin 1)))) := by
  have e15 : idx_main_v15 (ix2 n (0 : Fin 1)) = ix1 n := funext fun a => Fin.ext (by
    match a with
    | ⟨0, _⟩ => rfl)
  have e14 : ∀ k : Fin 128, idx_main_v14 (ix1 n) k = ix2 n k := fun k => funext fun a => Fin.ext (by
    match a with
    | ⟨0, _⟩ => rfl
    | ⟨1, _⟩ => rfl)
  rw [val_main_v17_apply, val_main_v15_apply, e15, val_main_v14_apply, val_main_v16_apply, val_main_cst_2_apply,
    val_main_cst_1_apply]
  have hs : (∑ k : Fin 128, val_main_v13 (F := Ideal) x0 x1 x2 x5 x6 (idx_main_v14 (ix1 n) k))
      = ∑ k : Fin 128, RowNorm.lin (aggRow x0 x5 x6 n) (wT x2) (x1 (ix2 n (0 : Fin 1))) k :=
    Finset.sum_congr rfl fun k _ => by rw [e14 k, lin_at]
  rw [hs]
  exact RowNorm.mean_of_host _

/-- The centred entry at (n, c) (the reference forms it twice, from the same mean). -/
theorem centred_at (n : Fin 50000) (c : Fin 128) :
    val_main_v19 (F := Ideal) x0 x1 x2 x5 x6 (ix2 n c)
      = RowNorm.centred (aggRow x0 x5 x6 n) (wT x2) (x1 (ix2 n (0 : Fin 1))) c := by
  have e18 : idx_main_v18 (ix2 n c) = ix2 n (0 : Fin 1) := funext fun a => Fin.ext (by
    match a with
    | ⟨0, _⟩ => rfl
    | ⟨1, _⟩ => rfl)
  rw [val_main_v19_apply, val_main_v18_apply, e18, lin_at, mean_at]
  rfl

theorem centred_at' (n : Fin 50000) (c : Fin 128) :
    val_main_v26 (F := Ideal) x0 x1 x2 x5 x6 (ix2 n c)
      = RowNorm.centred (aggRow x0 x5 x6 n) (wT x2) (x1 (ix2 n (0 : Fin 1))) c := by
  have e25 : idx_main_v25 (ix2 n c) = ix2 n (0 : Fin 1) := funext fun a => Fin.ext (by
    match a with
    | ⟨0, _⟩ => rfl
    | ⟨1, _⟩ => rfl)
  rw [val_main_v26_apply, val_main_v25_apply, e25, lin_at, mean_at]
  rfl

/-- One over the standard deviation of row n. -/
theorem invStd_at (n : Fin 50000) :
    val_main_v29 (F := Ideal) x0 x1 x2 x5 x6 (ix2 n (0 : Fin 1))
      = RowNorm.invStd (aggRow x0 x5 x6 n) (wT x2) (x1 (ix2 n (0 : Fin 1))) := by
  have e22 : idx_main_v22 (ix2 n (0 : Fin 1)) = ix1 n := funext fun a => Fin.ext (by
    match a with
    | ⟨0, _⟩ => rfl)
  have e21 : ∀ k : Fin 128, idx_main_v21 (ix1 n) k = ix2 n k := fun k => funext fun a => Fin.ext (by
    match a with
    | ⟨0, _⟩ => rfl
    | ⟨1, _⟩ => rfl)
  rw [val_main_v29_apply, val_main_v28_apply, val_main_v24_apply, val_main_v22_apply, e22, val_main_v21_apply,
    val_main_v23_apply, val_main_cst_4_apply, val_main_v27_apply, val_main_cst_5_apply, val_main_cst_3_apply]
  have hs : (∑ k : Fin 128, val_main_v20 (F := Ideal) x0 x1 x2 x5 x6 (idx_main_v21 (ix1 n) k))
      = ∑ k : Fin 128, RowNorm.centred (aggRow x0 x5 x6 n) (wT x2) (x1 (ix2 n (0 : Fin 1))) k
          * RowNorm.centred (aggRow x0 x5 x6 n) (wT x2) (x1 (ix2 n (0 : Fin 1))) k :=
    Finset.sum_congr rfl fun k _ => by rw [e21 k, val_main_v20_apply, centred_at]; rfl
  rw [hs]
  exact congrArg (fun z => Ideal.rsqrt (z + Ideal.ofBits .f32 0x3727C5AC#32)) (RowNorm.mean_of_host _)

/-- The scale and the bias, each broadcast twice, at (n, c). -/
theorem scale_at (n : Fin 50000) (c : Fin 128) : val_main_v33 (F := Ideal) x3 (ix2 n c) = x3 (ix1 c) := by
  have e33 : idx_main_v33 (ix2 n c) = ix2 (0 : Fin 1) c := funext fun a => Fin.ext (by
    match a with
    | ⟨0, _⟩ => rfl
    | ⟨1, _⟩ => rfl)
  have e32 : idx_main_v32 (ix2 (0 : Fin 1) c) = ix1 c := funext fun a => Fin.ext (by
    match a with
    | ⟨0, _⟩ => rfl)
  rw [val_main_v33_apply, e33, val_main_v32_apply, e32]

theorem bias_at (n : Fin 50000) (c : Fin 128) : val_main_v36 (F := Ideal) x4 (ix2 n c) = x4 (ix1 c) := by
  have e36 : idx_main_v36 (ix2 n c) = ix2 (0 : Fin 1) c := funext fun a => Fin.ext (by
    match a with
    | ⟨0, _⟩ => rfl
    | ⟨1, _⟩ => rfl)
  have e35 : idx_main_v35 (ix2 (0 : Fin 1) c) = ix1 c := funext fun a => Fin.ext (by
    match a with
    | ⟨0, _⟩ => rfl)
  rw [val_main_v36_apply, e36, val_main_v35_apply, e35]

/-- THE REFERENCE's result is the layer of the aggregated features and the transposed weight. -/
theorem result_eq :
    val_main_v38 (F := Ideal) x0 x1 x2 x3 x4 x5 x6
      = RowNorm.layer (val_main_v9 (F := Ideal) x0 x5 x6) (val_main_v10 (F := Ideal) x2) x1
          (fun q => x3 (ix1 q)) (fun q => x4 (ix1 q)) := by
  funext i
  obtain ⟨n, c, rfl⟩ : ∃ (n : Fin 50000) (c : Fin 128), i = ix2 n c := ⟨i 0, i 1, eq_ix2 i⟩
  have e0 : idx_main_call0_v0 (ix2 n c) = ix0 := funext fun a => a.elim0
  rw [val_main_v38_apply, val_main_v37_apply, val_main_v34_apply, val_main_v31_apply, centred_at', val_main_v30_apply]
  have e30 : idx_main_v30 (ix2 n c) = ix2 n (0 : Fin 1) := funext fun a => Fin.ext (by
    match a with
    | ⟨0, _⟩ => rfl
    | ⟨1, _⟩ => rfl)
  rw [e30, invStd_at, scale_at, bias_at, val_main_call0_v0_apply, val_main_call0_cst_apply]
  rfl

end Cert.RefRow

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.BodyRow.lean ====
/-
  The kernel body's value at one entry of a block.

  At a grid point the body holds a block of 5000 rows of the aggregated features (x0), the whole laid-out weight
  (x1), the 5000 nodes' factors (x2) and the scale and bias as rows (x3, x4).  Its stored value at (r, c) is
  `RowNorm.out` of row r: the product into the zero accumulator is the sum over the contracted axis (the
  roundings to the narrow format on the way in are the identity on ideal floats), each lane reduction is the sum
  of its row, a column kept after a reduction and repeated across the lanes reads the column's entry, and a row
  repeated down the rows reads the row's entry.
-/
import proofs.«131500_j69784628625697_1_alg».proof.Proof.Gen.KernelIdeal.Skeleton
import proofs.«131500_j69784628625697_1_alg».proof.Proof.RowNorm
import proofs.«131500_j69784628625697_1_alg».proof.Proof.LibMatmulZero
import proofs.«131500_j69784628625697_1_alg».proof.Proof.LibRowOps
import Idealize.ShloMosaic.Lib.Pipeline.Value
import Idealize.ShloMosaic.Lib.ValueLayout

noncomputable section

namespace Cert.BodyRow

open Cert.KernelIdeal Cert.KernelIdeal.Gen Idealize.ShloMosaic Idealize.ShloMosaic.ValueIdx

variable (x0 : Vec Ideal S5000x128 .f32) (x1 : Vec Ideal S128x128 .f32) (x2 : Vec Ideal S5000x1 .f32)
  (x3 x4 : Vec Ideal S1x128 .f32)

/-- The block's product with the weight, each row scaled by its node's factor. -/
def scaled : FVec Ideal S5000x128 .f32 :=
  mulf (matmul dot_S5000x128_S128x128_S5000x128_1_0_0_1_n_n none
      (truncf .bf16 (shapeCast S5000x128 x0 shapeCasts_S5000x128_S5000x128 : FVec Ideal S5000x128 .f32) bitsLt_bf16_f32)
      (truncf .bf16 (shapeCast S128x128 x1 shapeCasts_S128x128_S128x128 : FVec Ideal S128x128 .f32) bitsLt_bf16_f32)
      (constant (F := Ideal) S5000x128 .f32 0x00000000#32))
    (broadcastTo S5000x128 x2 broadcasts_S5000x1_S5000x128)

/-- The row means of a block, kept as a column. -/
def rowMean (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits (F := Ideal) .f32 0x43000000#32))

/-- The scaled product less its row means. -/
def centredBlk : FVec Ideal S5000x128 .f32 :=
  subf (scaled x0 x1 x2) (broadcastTo S5000x128 (rowMean (scaled x0 x1 x2)) broadcasts_S5000x1_S5000x128)

/-- One over the rows' standard deviations, as a column. -/
def invStdCol : FVec Ideal S5000x1 .f32 :=
  rsqrt (addf (rowMean (mulf (centredBlk x0 x1 x2) (centredBlk x0 x1 x2)))
    (broadcast S5000x1 (Scalar.ofBits (F := Ideal) .f32 0x3727C5AC#32)))

/-- The body's stored value is these stages composed (the printed operations, named). -/
theorem pay_eq :
    k0_pay1 (F := Ideal) x0 x1 x2 x3 x4
      = maximumf (addf (mulf (mulf (centredBlk x0 x1 x2) (broadcastTo S5000x128 (invStdCol x0 x1 x2) broadcasts_S5000x1_S5000x128))
            (broadcastTo S5000x128 (shapeCast S1x128 x3 shapeCasts_S1x128_S1x128) broadcasts_S1x128_S5000x128))
          (broadcastTo S5000x128 (shapeCast S1x128 x4 shapeCasts_S1x128_S1x128) broadcasts_S1x128_S5000x128))
        (broadcast S5000x128 (Scalar.ofBits (F := Ideal) .f32 0x00000000#32)) := rfl

/-- The printed dimension numbers carry the left operand's axis 0 to the result's axis 0 … -/
theorem dot_lhs0 (i : (⟨2, ![5000, 128]⟩ : Shape).Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and the right operand's axis 1 to the result's axis 1. -/
theorem dot_rhs1 (i : (⟨2, ![5000, 128]⟩ : Shape).Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The scaled product at (r, c): row r of the block through the weight, times node r's factor. -/
theorem scaled_at (r : Fin 5000) (c : Fin 128) :
    scaled x0 x1 x2 (ix2 r c)
      = RowNorm.lin (fun k => x0 (ix2 r k)) (fun k q => x1 (ix2 k q)) (x2 (ix2 r (0 : Fin 1))) c := by
  unfold scaled
  rw [shapeCast_self, shapeCast_self, mulf_apply,
    Cert.LibRowOps.broadcastTo_a1_ab_apply x2 broadcasts_S5000x1_S5000x128 r c,
    Cert.LibMatmulZero.matmul_zero_ix2 dot_S5000x128_S128x128_S5000x128_1_0_0_1_n_n rfl rfl rfl rfl dot_lhs0 dot_rhs1 none _ _ r c]
  rfl

/-- A block's row mean at row r: the mean of that row. -/
theorem rowMean_at (v : FVec Ideal S5000x128 .f32) (r : Fin 5000) :
    rowMean v (ix2 r (0 : Fin 1)) = RowNorm.mean (fun c => v (ix2 r c)) := by
  unfold rowMean
  rw [divf_apply, Cert.LibRowOps.shapeCast_a_a1_apply _ shapeCasts_S5000_S5000x1 r (0 : Fin 1)]
  exact congrArg (fun z => Ideal.div z (Ideal.ofBits .f32 0x43000000#32))
    (Cert.LibRowOps.rowAdd_apply v reduces_S5000x128_S5000 _ _ r)

/-- The centred entry at (r, c). -/
theorem centredBlk_at (r : Fin 5000) (c : Fin 128) :
    centredBlk x0 x1 x2 (ix2 r c)
      = RowNorm.centred (fun k => x0 (ix2 r k)) (fun k q => x1 (ix2 k q)) (x2 (ix2 r (0 : Fin 1))) c := by
  unfold centredBlk
  rw [subf_apply, Cert.LibRowOps.broadcastTo_a1_ab_apply _ broadcasts_S5000x1_S5000x128 r c, rowMean_at, scaled_at]
  refine congrArg (fun f => RowNorm.lin _ _ _ c - RowNorm.mean f) (funext fun q => ?_)
  rw [scaled_at]

/-- One over row r's standard deviation. -/
theorem invStdCol_at (r : Fin 5000) :
    invStdCol x0 x1 x2 (ix2 r (0 : Fin 1))
      = RowNorm.invStd (fun k => x0 (ix2 r k)) (fun k q => x1 (ix2 k q)) (x2 (ix2 r (0 : Fin 1))) := by
  unfold invStdCol
  show Ideal.rsqrt (rowMean (mulf (centredBlk x0 x1 x2) (centredBlk x0 x1 x2)) (ix2 r (0 : Fin 1)) + Ideal.ofBits .f32 0x3727C5AC#32) = _
  rw [rowMean_at]
  refine congrArg (fun f => Ideal.rsqrt (RowNorm.mean f + Ideal.ofBits .f32 0x3727C5AC#32)) (funext fun q => ?_)
  rw [mulf_apply, centredBlk_at]

/-- THE BODY'S VALUE at (r, c) is the layer's output row of the block's row r. -/
theorem pay_at (r : Fin 5000) (c : Fin 128) :
    k0_pay1 (F := Ideal) x0 x1 x2 x3 x4 (ix2 r c)
      = RowNorm.out (fun k => x0 (ix2 r k)) (fun k q => x1 (ix2 k q)) (x2 (ix2 r (0 : Fin 1)))
          (fun q => x3 (ix2 (0 : Fin 1) q)) (fun q => x4 (ix2 (0 : Fin 1) q)) c := by
  rw [pay_eq, maximumf_apply, addf_apply, mulf_apply, mulf_apply, centredBlk_at,
    Cert.LibRowOps.broadcastTo_a1_ab_apply _ broadcasts_S5000x1_S5000x128 r c, invStdCol_at,
    broadcastTo_1b_ab_apply _ broadcasts_S1x128_S5000x128 r c,
    broadcastTo_1b_ab_apply _ broadcasts_S1x128_S5000x128 r c, shapeCast_self, shapeCast_self]
  rfl

end Cert.BodyRow

end
-- ==== Proof.Rows.lean ====
/-
  From the ten blocks to the whole result array.

  The grid has ten points; at point t the output window's block is rows 5000·t … 5000·t + 4999 of the result, the
  aggregated features' and the node factors' blocks are the same rows of their arrays, and the weight, the scale and
  the bias are read whole at every point (their block index is always zero).  So the value the body stores at
  (r, c) of point t's block is `RowNorm.out` of row 5000·t + r of the arrays as the kernel finds them — the entry
  (5000·t + r, c) of the one whole-array function `found`; the ten blocks tile the 50000 rows (row n lies in the
  block of point n / 5000), so the result array ends holding `found`.
-/
import proofs.«131500_j69784628625697_1_alg».proof.Proof.Gen.KernelIdeal.Value
import proofs.«131500_j69784628625697_1_alg».proof.Proof.BodyRow
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Rows

open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the ten grid points: the row-blocked windows (aggregated features, node factors,
    result) sit at block t along the rows, the others at block zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := by
  have h := t.isLt
  have hN : cfg0.N = 10 := N_0
  omega

/-- The layer over ANY five arrays of the windows' shapes (scale and bias as one-row matrices). -/
def layerOf (A0 : S50000x128.Idx → EReal) (A1 : S128x128.Idx → EReal) (A2 : S50000x1.Idx → EReal)
    (A3 A4 : S1x128.Idx → EReal) : S50000x128.Idx → EReal :=
  RowNorm.layer A0 A1 A2 (fun q => A3 (ix2 (0 : Fin 1) q)) (fun q => A4 (ix2 (0 : Fin 1) q))

/-- The result array as ONE function of the arrays the kernel finds in its five input windows. -/
def found (c : Dev nD) : S50000x128.Idx → EReal :=
  layerOf (V m c (Pipeline.arrRef spec0 0)) (V m c (Pipeline.arrRef spec0 1)) (V m c (Pipeline.arrRef spec0 2))
    (V m c (Pipeline.arrRef spec0 3)) (V m c (Pipeline.arrRef spec0 4))

/-! ## Each input window's block of ANY array, read at an entry, is the array at the entry's place

Each holds of any array `A` in the window's place: a block is a rectangle of rows (or the whole array), whatever
the array holds. -/

/-- Row r of point t's block of the first window's array is row 5000·t + r. -/
theorem agg_block_at (A : S50000x128.Idx → EReal) (t : Fin cfg0.N) (r : Fin 5000) (k : Fin 128) (n : Fin 50000)
    (hn : n.val = t.val * 5000 + r.val) :
    (((cfg0.win 0).blk t).view.read (Elt Ideal) A : Vec Ideal S5000x128 .f32) (ix2 r k) = A (ix2 n k) := by
  obtain ⟨e0, e1, -⟩ := index_facts t
  show A (((cfg0.win 0).blk t).view.emb (ix2 r k)) = _
  refine congrArg A (funext fun a => Fin.ext ?_)
  match a with
  | ⟨0, _⟩ => show win0_0.index t (0 : Fin 2) * 5000 + 1 * r.val = n.val; omega
  | ⟨1, _⟩ => show win0_0.index t (1 : Fin 2) * 128 + 1 * k.val = k.val; omega

/-- The second window's block is its whole array at every point. -/
theorem weight_block_at (A : S128x128.Idx → EReal) (t : Fin cfg0.N) (k q : Fin 128) :
    (((cfg0.win 1).blk t).view.read (Elt Ideal) A : Vec Ideal S128x128 .f32) (ix2 k q) = A (ix2 k q) := by
  obtain ⟨-, -, e0, e1, -⟩ := index_facts t
  show A (((cfg0.win 1).blk t).view.emb (ix2 k q)) = _
  refine congrArg A (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry r of point t's block of the third window's column is entry 5000·t + r. -/
theorem factor_block_at (A : S50000x1.Idx → EReal) (t : Fin cfg0.N) (r : Fin 5000) (n : Fin 50000)
    (hn : n.val = t.val * 5000 + r.val) :
    (((cfg0.win 2).blk t).view.read (Elt Ideal) A : Vec Ideal S5000x1 .f32) (ix2 r (0 : Fin 1)) = A (ix2 n (0 : Fin 1)) := by
  obtain ⟨-, -, -, -, e0, e1, -⟩ := index_facts t
  show A (((cfg0.win 2).blk t).view.emb (ix2 r (0 : Fin 1))) = _
  refine congrArg A (funext fun a => Fin.ext ?_)
  match a with
  | ⟨0, _⟩ => show win0_2.index t (0 : Fin 2) * 5000 + 1 * r.val = n.val; omega
  | ⟨1, _⟩ => show win0_2.index t (1 : Fin 2) * 1 + 1 * 0 = 0; omega

/-- The fourth window's block is its whole one-row array at every point. -/
theorem scale_block_at (A : S1x128.Idx → EReal) (t : Fin cfg0.N) (q : Fin 128) :
    (((cfg0.win 3).blk t).view.read (Elt Ideal) A : Vec Ideal S1x128 .f32) (ix2 (0 : Fin 1) q) = A (ix2 (0 : Fin 1) q) := by
  obtain ⟨-, -, -, -, -, -, e0, e1, -⟩ := index_facts t
  show A (((cfg0.win 3).blk t).view.emb (ix2 (0 : Fin 1) q)) = _
  refine congrArg A (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The fifth window's block is its whole one-row array at every point. -/
theorem bias_block_at (A : S1x128.Idx → EReal) (t : Fin cfg0.N) (q : Fin 128) :
    (((cfg0.win 4).blk t).view.read (Elt Ideal) A : Vec Ideal S1x128 .f32) (ix2 (0 : Fin 1) q) = A (ix2 (0 : Fin 1) q) := by
  obtain ⟨-, -, -, -, -, -, -, -, e0, e1, -⟩ := index_facts t
  show A (((cfg0.win 4).blk t).view.emb (ix2 (0 : Fin 1) q)) = _
  refine congrArg A (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## What a point stores is its block of the layer -/

/-- Over any five arrays: the body's value at an entry of point t's blocks is the layer of the arrays at the entry's
    place in the result array. -/
theorem point_spec (A0 : S50000x128.Idx → EReal) (A1 : S128x128.Idx → EReal) (A2 : S50000x1.Idx → EReal)
    (A3 A4 : S1x128.Idx → EReal) (t : Fin cfg0.N) (y : S5000x128.Idx) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) y
      = layerOf A0 A1 A2 A3 A4 (((cfg0.win 5).blk t).view.emb y) := by
  obtain ⟨r, q, rfl⟩ : ∃ (r : Fin 5000) (q : Fin 128), y = ix2 r q := ⟨y 0, y 1, eq_ix2 y⟩
  have ht := point_lt t
  obtain ⟨-, -, -, -, -, -, -, -, -, -, e0, e1⟩ := index_facts t
  have hr := r.isLt
  refine (BodyRow.pay_at _ _ _ _ _ r q).trans ?_
  unfold layerOf
  refine Eq.trans ?_ (RowNorm.layer_at _ _ _ _ _ (((cfg0.win 5).blk t).view.emb (ix2 r q))
    (⟨t.val * 5000 + r.val, by omega⟩ : Fin 50000) q ?_ ?_).symm
  · exact RowNorm.out_congr
      (funext fun k => agg_block_at A0 t r k _ rfl)
      (funext fun k => funext fun q' => weight_block_at A1 t k q')
      (factor_block_at A2 t r _ rfl)
      (funext fun q' => scale_block_at A3 t q')
      (funext fun q' => bias_block_at A4 t q') q
  · show win0_5.index t (0 : Fin 2) * 5000 + 1 * r.val = t.val * 5000 + r.val; omega
  · show win0_5.index t (1 : Fin 2) * 128 + 1 * q.val = q.val; omega

/-- The body's value at an entry of point t's block is `found` at the entry's place in the result array. -/
theorem point_eq (c : Dev nD) (t : Fin cfg0.N) (y : S5000x128.Idx) :
    k0_pay1 (F := Ideal) (iblk m c 0 t) (iblk m c 1 t) (iblk m c 2 t) (iblk m c 3 t) (iblk m c 4 t) y
      = found m c (((cfg0.win 5).blk t).view.emb y) :=
  point_spec (V m c (Pipeline.arrRef spec0 0)) (V m c (Pipeline.arrRef spec0 1)) (V m c (Pipeline.arrRef spec0 2))
    (V m c (Pipeline.arrRef spec0 3)) (V m c (Pipeline.arrRef spec0 4)) t y

/-- A block value `X` that agrees, entry by entry, with a whole-array function `G` at the entries' places is the
    block of `G` (stated over any `X` and `G`: the output window is not cut and reads its array in place). -/
theorem flushed_spec (X : Vec Ideal S5000x128 .f32) (G : S50000x128.Idx → EReal) (t : Fin cfg0.N)
    (h : ∀ y : S5000x128.Idx, X y = G (((cfg0.win 5).blk t).view.emb y)) :
    (cfg0.win 5).cut (grid0.coords t) X = ((cfg0.win 5).blk t).view.read (Elt Ideal) G :=
  funext fun j => h j

/-- WHAT POINT t WRITES BACK is its block of `found`. -/
theorem flushed_eq (c : Dev nD) (t : Fin cfg0.N) :
    (dats m 0 c).flushed 5 t = ((cfg0.win 5).blk t).view.read (Elt Ideal) (found m c) := by
  rw [flushed5]
  unfold out0_5
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets]
  exact flushed_spec _ (found m c) t (point_eq m c t)

/-! ## The ten blocks tile the rows -/

/-- An index of the result array is in point t's block iff each coordinate is in the block's range on its axis. -/
theorem mem_block (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v13).slice (win0_5.rect t)).set ↔ _
  rw [View.set_slice_whole, Rect.mem_set_unit]
  exact Iff.rfl

/-- Row n of the result lies in the block of point n / 5000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  refine ⟨⟨(i 0).val / 5000, hlt⟩, flush0_5 _, ?_⟩
  rw [mem_block]
  obtain ⟨-, -, -, -, -, -, -, -, -, -, e0, e1⟩ := index_facts ⟨(i 0).val / 5000, hlt⟩
  have e0' : win0_5.index ⟨(i 0).val / 5000, hlt⟩ (0 : Fin 2) = (i 0).val / 5000 := e0
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    omega

/-- THE RESULT ARRAY after the run is `found`. -/
theorem final5 (c : Dev nD) : (dats m 0 c).arrAt 5 cfg0.N = found m c :=
  (dats m 0 c).arrAt_eq_of_cover 5 (found m c) (fun t _ => flushed_eq m c t) covered

/-- The kernel's run, read: the result array at `found`, the arguments unchanged. -/
theorem run : θ_run defs (onTc (τ := τ) (main (F := Ideal))) ⟨m, fun _ => 0, ρ⟩ fun r => ∀ c : Dev nD,
      r.2.mem ((c : Thread nD τ).loc main_v13) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final5 m c), (h c).2⟩)
    (Cert.KernelIdeal.Value.run_blocks m ρ)

end Cert.Rows

end
-- ==== Proof.Entry.lean ====
/-
  What the kernel finds in its windows' arrays: the host operations before the call.

  The source indices are wrapped (a negative one is shifted up by the number of nodes), the feature rows they name
  are gathered, and the gathered rows are added, each at its destination index, into a table of zeros: the
  AGGREGATED features, one function `aggregated` of the feature table and the two index vectors.  The weight is transposed, and the scale and the bias vectors are laid as one-row matrices, whose entry
  (0, q) is the vector's entry q.  The node factors reach the kernel as they were passed.
-/
import proofs.«131500_j69784628625697_1_alg».proof.Proof.Gen.KernelIdeal.Frame
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.StableHlo Idealize.ShloMosaic.ValueIdx

namespace Cert.Entry

open Cert.KernelIdeal Cert.KernelIdeal.Gen

variable (m : (ℓ : Loc nD τ sig) → Buf (Elt Ideal) ℓ)

/-- The aggregated features: the rows of `x0` named by the wrapped indices `x5`, scatter-added at the indices `x6`
    into zeros. -/
def aggregated (x0 : (⟨S50000x128, .f32⟩ : BufTy).Contents (Elt Ideal)) (x5 x6 : (⟨S800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 x6)
    (Host.gather gather_S50000x128_S800000x1_S800000x128_1_0_n_n_0_1_1128 x0
      (broadcastInDim S800000x1 ![0] bcast_S800000_S800000x1_0
        (select (cmpi .slt x5 (broadcastInDim S800000 ![] bcast_S_S800000 (constantI S_ 32 0#32)))
          (addi x5 (broadcastInDim S800000 ![] bcast_S_S800000 (constantI S_ 32 50000#32))) x5)))

/-- The kernel's first operand is the aggregated features of the arguments. -/
theorem found_agg (c : Dev nD) :
    (V m c main_v9 : S50000x128.Idx → EReal)
      = aggregated (m ((c : Thread nD τ).loc main_arg0)) (m ((c : Thread nD τ).loc main_arg5)) (m ((c : Thread nD τ).loc main_arg6)) := by
  dsimp only [Gen.V, Gen.hostOps0]
  after_results
  rfl

/-- Its second operand is the weight transposed. -/
theorem found_weight (c : Dev nD) :
    (V m c main_v10 : S128x128.Idx → EReal)
      = transpose S128x128 [1, 0] (m ((c : Thread nD τ).loc main_arg2)) transposes_S128x128_S128x128_1_0 := by
  dsimp only [Gen.V, Gen.hostOps0]
  after_results

/-- The scale as a row: entry (0, q) is the vector's entry q. -/
theorem found_scale_at (c : Dev nD) (q : Fin 128) :
    (V m c main_v11 : S1x128.Idx → EReal) (ix2 (0 : Fin 1) q)
      = (m ((c : Thread nD τ).loc main_arg3) : S128.Idx → EReal) (ix1 q) := by
  have e : (V m c main_v11 : S1x128.Idx → EReal)
      = shapeCast S1x128 (m ((c : Thread nD τ).loc main_arg3) : S128.Idx → EReal) shapeCasts_S128_S1x128 := by
    dsimp only [Gen.V, Gen.hostOps0]
    after_results
    rfl
  rw [e]
  exact shapeCast_a_1a_apply _ shapeCasts_S128_S1x128 (0 : Fin 1) q

/-- The bias as a row: entry (0, q) is the vector's entry q. -/
theorem found_bias_at (c : Dev nD) (q : Fin 128) :
    (V m c main_v12 : S1x128.Idx → EReal) (ix2 (0 : Fin 1) q)
      = (m ((c : Thread nD τ).loc main_arg4) : S128.Idx → EReal) (ix1 q) := by
  have e : (V m c main_v12 : S1x128.Idx → EReal)
      = shapeCast S1x128 (m ((c : Thread nD τ).loc main_arg4) : S128.Idx → EReal) shapeCasts_S128_S1x128 := by
    dsimp only [Gen.V, Gen.hostOps0]
    after_results
    rfl
  rw [e]
  exact shapeCast_a_1a_apply _ shapeCasts_S128_S1x128 (0 : Fin 1) q

end Cert.Entry

end
-- ==== Proof.lean ====
/-
  The layer's kernel against its reference, on the extended reals.

  Both programs first aggregate, on the host and by the same operations, the feature rows named by the source indices
  into the rows named by the destination indices, and transpose the weight.  The kernel then takes the aggregated
  rows 5000 at a time: it multiplies a block into the transposed weight (the roundings on the way into the product
  are the identity on ideal floats, and a product into a zero accumulator is the plain sum over the contracted
  axis), scales each row by its node's factor, normalises the row by its mean and its variance plus 1e-5, applies
  the scale and the bias, and clips below at zero.  The reference does the same to the whole array with the host's
  product, sums (which start from the float zero, the zero of the extended reals), division and reciprocal square
  root.  Row by row both are `RowNorm.out`; the kernel's ten blocks tile the 50000 rows.  No step distributes a
  product over a sum or cancels anything, so the inputs' finiteness is not used.

  `RowNorm`: the function of one row.  `RefRow`: the reference is that function, row by row.  `BodyRow`: so is the
  kernel body at an entry of a block.  `Rows`: from the blocks to the result array.  `Entry`: what the kernel finds
  in its windows' arrays, in terms of the arguments.  Here: the two sides are one array, and the five claims.
-/
import proofs.«131500_j69784628625697_1_alg».proof.Defs
import proofs.«131500_j69784628625697_1_alg».proof.Proof.Gen.Kernel
import proofs.«131500_j69784628625697_1_alg».proof.Proof.Gen.Kernel.Frame
import proofs.«131500_j69784628625697_1_alg».proof.Proof.Gen.KernelIdeal
import proofs.«131500_j69784628625697_1_alg».proof.Proof.Gen.KernelIdeal.Frame
import proofs.«131500_j69784628625697_1_alg».proof.Proof.Gen.KernelIdeal.Value
import proofs.«131500_j69784628625697_1_alg».proof.Proof.Gen.ReferenceIdeal
import proofs.«131500_j69784628625697_1_alg».proof.Proof.Gen.ReferenceIdeal.Run
import proofs.«131500_j69784628625697_1_alg».proof.Proof.Gen.ReferenceIdeal.Read
import proofs.«131500_j69784628625697_1_alg».proof.Proof.Gen.Pre_finite_inputs
import proofs.«131500_j69784628625697_1_alg».proof.Proof.RowNorm
import proofs.«131500_j69784628625697_1_alg».proof.Proof.RefRow
import proofs.«131500_j69784628625697_1_alg».proof.Proof.Rows
import proofs.«131500_j69784628625697_1_alg».proof.Proof.Entry
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two programs' host sides are one term -/

/-- The aggregated features of the kernel's program are the reference's: the same operations on the same arguments. -/
theorem aggregated_eq (x0 : (⟨Cert.KernelIdeal.S50000x128, .f32⟩ : BufTy).Contents (Elt Ideal))
    (x5 x6 : (⟨Cert.KernelIdeal.S800000, .i32⟩ : BufTy).Contents (Elt Ideal)) :
    Cert.Entry.aggregated x0 x5 x6 = Cert.ReferenceIdeal.Read.val_main_v9 (F := Ideal) x0 x5 x6 := rfl

/-- So are the two transposed weights. -/
theorem weight_eq (x2 : (⟨Cert.KernelIdeal.S128x128, .f32⟩ : BufTy).Contents (Elt Ideal)) :
    transpose Cert.KernelIdeal.S128x128 [1, 0] x2 Cert.KernelIdeal.Gen.transposes_S128x128_S128x128_1_0
      = Cert.ReferenceIdeal.Read.val_main_v10 (F := Ideal) x2 := rfl

/-! ## The kernel's result array in terms of the arguments -/

section
open Cert.KernelIdeal Cert.KernelIdeal.Gen

/-- What the kernel's run leaves in the result array is the layer of the aggregated features, the transposed weight,
    the node factors, the scale and the bias. -/
theorem found_eq (m : (ℓ : Loc nD τ sig) → Buf (Elt Ideal) ℓ) (c : Dev nD) :
    Cert.Rows.found m c
      = RowNorm.layer
          (Cert.ReferenceIdeal.Read.val_main_v9 (F := Ideal) (m ((c : Thread nD τ).loc main_arg0))
            (m ((c : Thread nD τ).loc main_arg5)) (m ((c : Thread nD τ).loc main_arg6)))
          (Cert.ReferenceIdeal.Read.val_main_v10 (F := Ideal) (m ((c : Thread nD τ).loc main_arg2)))
          (m ((c : Thread nD τ).loc main_arg1))
          (fun q => (m ((c : Thread nD τ).loc main_arg3) : S128.Idx → EReal) (ix1 q))
          (fun q => (m ((c : Thread nD τ).loc main_arg4) : S128.Idx → EReal) (ix1 q)) := by
  have e0 : (V m c (Pipeline.arrRef spec0 0) : S50000x128.Idx → EReal)
      = Cert.ReferenceIdeal.Read.val_main_v9 (F := Ideal) (m ((c : Thread nD τ).loc main_arg0))
          (m ((c : Thread nD τ).loc main_arg5)) (m ((c : Thread nD τ).loc main_arg6)) :=
    (Cert.Entry.found_agg m c).trans (aggregated_eq _ _ _)
  have e1 : (V m c (Pipeline.arrRef spec0 1) : S128x128.Idx → EReal)
      = Cert.ReferenceIdeal.Read.val_main_v10 (F := Ideal) (m ((c : Thread nD τ).loc main_arg2)) :=
    (Cert.Entry.found_weight m c).trans (weight_eq _)
  have e2 : (V m c (Pipeline.arrRef spec0 2) : S50000x1.Idx → EReal) = m ((c : Thread nD τ).loc main_arg1) :=
    V_main_arg1 m c
  have e3 : (fun q : Fin 128 => (V m c (Pipeline.arrRef spec0 3) : S1x128.Idx → EReal) (ix2 (0 : Fin 1) q))
      = fun q => (m ((c : Thread nD τ).loc main_arg3) : S128.Idx → EReal) (ix1 q) :=
    funext fun q => Cert.Entry.found_scale_at m c q
  have e4 : (fun q : Fin 128 => (V m c (Pipeline.arrRef spec0 4) : S1x128.Idx → EReal) (ix2 (0 : Fin 1) q))
      = fun q => (m ((c : Thread nD τ).loc main_arg4) : S128.Idx → EReal) (ix1 q) :=
    funext fun q => Cert.Entry.found_bias_at m c q
  unfold Cert.Rows.found Cert.Rows.layerOf
  rw [e0, e1, e2, e3, e4]

end

/-! ## The claims -/

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealized kernel is the printed one read at the ideal floats: no operation was rewritten. -/
theorem preserves : Cert.preserves_Kernel_KernelIdeal := trivial

/-- From memories that agree on the arguments the kernel's result array ends at the layer of the arguments
    (`Rows.run`, `found_eq`) and so does the reference's (`RefRow.result_eq`). -/
theorem algebraic : Cert.algebraic_KernelIdeal_ReferenceIdeal := by
  intro m ρ m' ρ' _ hagree
  refine ⟨fun c => Cert.Rows.found m c, Cert.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v38_eq, Cert.RefRow.result_eq, a0, a1, a2, a3, a4, a5, a6]
  exact (found_eq m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
